-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S2048x512 : Shape := ⟨2, ![2048, 512]⟩
abbrev S2048 : Shape := ⟨1, ![2048]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x512 .f32) (main_arg5 : FVec F S2048 .f32) (main_arg6 : FVec F S2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x512 .f32) (main_arg1 : FVec F S4096x512 .f32) (main_arg2 : FVec F S4096x512 .f32) (main_arg3 : FVec F S2048x512 .f32) (main_arg4 : FVec F S2048x512 .f32) (main_arg5 : FVec F S2048 .f32) (main_arg6 : FVec F S2048 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_v13 main_v16
-- ==== Kernel.lean ====
abbrev S4096x512 : Shape := ⟨2, ![4096, 512]⟩
abbrev S2048x512 : Shape := ⟨2, ![2048, 512]⟩
abbrev S2048 : Shape := ⟨1, ![2048]⟩
abbrev S1x2048 : Shape := ⟨2, ![1, 2048]⟩
abbrev S256x512 : Shape := ⟨2, ![256, 512]⟩
abbrev S256x2048 : Shape := ⟨2, ![256, 2048]⟩

abbrev nBuf : Space → Nat
  | .hbm => 11
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S2048x512, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S4096x512, .f32⟩
  | .hbm, ⟨10, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S2048x512, .f32⟩
  | .local _ .vmem, ⟨7, _⟩ => ⟨S2048x512, .f32⟩
  | .local _ .vmem, ⟨8, _⟩ => ⟨S1x2048, .f32⟩
  | .local _ .vmem, ⟨9, _⟩ => ⟨S1x2048, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S2048_S1x2048 : S2048.ShapeCasts S1x2048
  inb_S256x512_S256x512_0_0 : ∀ a, (![0, 0] : Fin 2 → Nat) a + S256x512.size a ≤ S256x512.size a
  h_S256x512 : 0 < S256x512.numel
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x2048_o0_0_S256x512 : S256x2048.Slices ![0, 0] S256x512
  slices_S256x2048_o0_512_S256x512 : S256x2048.Slices ![0, 512] S256x512
  slices_S256x2048_o0_1024_S256x512 : S256x2048.Slices ![0, 1024] S256x512
  slices_S256x2048_o0_1536_S256x512 : S256x2048.Slices ![0, 1536] S256x512
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x512.size a
  hwx0_1 : ∀ i : grid0.Coords, EltTy.bits .f32 = 32 ∨ (Rect.block (s := S4096x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S4096x512.size a
  hwx0_2 : ∀ i : grid0.Coords, EltTy.bits .f32 = 32 ∨ (Rect.block (s := S4096x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .f32 = 32 ∨ (Rect.block (s := S2048x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .f32 = 32 ∨ (Rect.block (s := S2048x512) S2048x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S4096x512.size a
  hwx0_7 : ∀ i : grid0.Coords, EltTy.bits .f32 = 32 ∨ (Rect.block (s := S4096x512) S256x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S4096x512.size a
  hwx0_8 : ∀ i : grid0.Coords, EltTy.bits .f32 = 32 ∨ (Rect.block (s := S4096x512) S256x512.size (cc0_transform_8 i) (hinb0_8 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S256x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S256x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x512 : Shape := ⟨2, ![4096, 512]⟩
abbrev S2048x512 : Shape := ⟨2, ![2048, 512]⟩
abbrev S2048 : Shape := ⟨1, ![2048]⟩
abbrev S512x2048 : Shape := ⟨2, ![512, 2048]⟩
abbrev S4096x2048 : Shape := ⟨2, ![4096, 2048]⟩
abbrev S1x2048 : Shape := ⟨2, ![1, 2048]⟩
abbrev S_ : Shape := ⟨0, ![]⟩

abbrev nBuf : Space → Nat
  | .hbm => 267
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S2048x512, .f32⟩
  | 4 => ⟨S2048x512, .f32⟩
  | 5 => ⟨S2048, .f32⟩
  | 6 => ⟨S2048, .f32⟩
  | 7 => ⟨S512x2048, .f32⟩
  | 8 => ⟨S4096x2048, .f32⟩
  | 9 => ⟨S1x2048, .f32⟩
  | 10 => ⟨S4096x2048, .f32⟩
  | 11 => ⟨S4096x2048, .f32⟩
  | 12 => ⟨S512x2048, .f32⟩
  | 13 => ⟨S4096x2048, .f32⟩
  | 14 => ⟨S1x2048, .f32⟩
  | 15 => ⟨S4096x2048, .f32⟩
  | 16 => ⟨S4096x2048, .f32⟩
  | 17 => ⟨S_, .f32⟩
  | 18 => ⟨S4096x2048, .f32⟩
  | 19 => ⟨S4096x2048, .f32⟩
  | 20 => ⟨S_, .f32⟩
  | 21 => ⟨S4096x2048, .f32⟩
  | 22 => ⟨S4096x2048, .f32⟩
  | 23 => ⟨S4096x2048, .f32⟩
  | 24 => ⟨S_, .f32⟩
  | 25 => ⟨S4096x2048, .f32⟩
  | 26 => ⟨S4096x2048, .f32⟩
  | 27 => ⟨S_, .f32⟩
  | 28 => ⟨S4096x2048, .f32⟩
  | 29 => ⟨S4096x2048, .f32⟩
  | 30 => ⟨S_, .f32⟩
  | 31 => ⟨S4096x2048, .f32⟩
  | 32 => ⟨S4096x2048, .f32⟩
  | 33 => ⟨S4096x2048, .f32⟩
  | 34 => ⟨S_, .f32⟩
  | 35 => ⟨S4096x2048, .f32⟩
  | 36 => ⟨S4096x2048, .f32⟩
  | 37 => ⟨S4096x2048, .f32⟩
  | 38 => ⟨S4096x512, .f32⟩
  | 39 => ⟨S4096x512, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S_, .f32⟩
  | 46 => ⟨S4096x512, .f32⟩
  | 47 => ⟨S4096x512, .f32⟩
  | 48 => ⟨S4096x512, .f32⟩
  | 49 => ⟨S_, .f32⟩
  | 50 => ⟨S_, .f32⟩
  | 51 => ⟨S_, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S_, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S_, .f32⟩
  | 79 => ⟨S4096x512, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S_, .f32⟩
  | 89 => ⟨S4096x512, .f32⟩
  | 90 => ⟨S4096x512, .f32⟩
  | 91 => ⟨S4096x512, .f32⟩
  | 92 => ⟨S_, .f32⟩
  | 93 => ⟨S_, .f32⟩
  | 94 => ⟨S_, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S_, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S_, .f32⟩
  | 122 => ⟨S4096x512, .f32⟩
  | 123 => ⟨S4096x512, .f32⟩
  | 124 => ⟨S4096x512, .f32⟩
  | 125 => ⟨S_, .f32⟩
  | 126 => ⟨S4096x512, .f32⟩
  | 127 => ⟨S4096x512, .f32⟩
  | _ => ⟨S4096x512, .f32⟩

abbrev hbmTy0_1 (i : Nat) : BufTy := match i % 128 with
  | 0 => ⟨S_, .f32⟩
  | 1 => ⟨S4096x512, .f32⟩
  | 2 => ⟨S4096x512, .f32⟩
  | 3 => ⟨S_, .f32⟩
  | 4 => ⟨S4096x512, .f32⟩
  | 5 => ⟨S4096x512, .f32⟩
  | 6 => ⟨S4096x512, .f32⟩
  | 7 => ⟨S_, .f32⟩
  | 8 => ⟨S_, .f32⟩
  | 9 => ⟨S_, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S4096x512, .f32⟩
  | 43 => ⟨S_, .f32⟩
  | 44 => ⟨S_, .f32⟩
  | 45 => ⟨S_, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S4096x512, .f32⟩
  | 86 => ⟨S_, .f32⟩
  | 87 => ⟨S4096x512, .f32⟩
  | 88 => ⟨S4096x512, .f32⟩
  | 89 => ⟨S4096x512, .f32⟩
  | 90 => ⟨S4096x512, .f32⟩
  | 91 => ⟨S4096x512, .f32⟩
  | 92 => ⟨S_, .f32⟩
  | 93 => ⟨S4096x512, .f32⟩
  | 94 => ⟨S4096x512, .f32⟩
  | 95 => ⟨S_, .f32⟩
  | 96 => ⟨S4096x512, .f32⟩
  | 97 => ⟨S4096x512, .f32⟩
  | 98 => ⟨S4096x512, .f32⟩
  | 99 => ⟨S_, .f32⟩
  | 100 => ⟨S_, .f32⟩
  | 101 => ⟨S_, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S_, .f32⟩
  | 108 => ⟨S4096x512, .f32⟩
  | 109 => ⟨S4096x512, .f32⟩
  | 110 => ⟨S4096x512, .f32⟩
  | 111 => ⟨S_, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S4096x512, .f32⟩
  | 118 => ⟨S_, .f32⟩
  | 119 => ⟨S4096x512, .f32⟩
  | 120 => ⟨S4096x512, .f32⟩
  | 121 => ⟨S_, .f32⟩
  | 122 => ⟨S4096x512, .f32⟩
  | 123 => ⟨S4096x512, .f32⟩
  | 124 => ⟨S4096x512, .f32⟩
  | 125 => ⟨S_, .f32⟩
  | 126 => ⟨S4096x512, .f32⟩
  | 127 => ⟨S4096x512, .f32⟩
  | _ => ⟨S4096x512, .f32⟩

abbrev hbmTy0_2 (i : Nat) : BufTy := match i % 128 with
  | 0 => ⟨S4096x512, .f32⟩
  | 1 => ⟨S_, .f32⟩
  | 2 => ⟨S4096x512, .f32⟩
  | 3 => ⟨S4096x512, .f32⟩
  | 4 => ⟨S_, .f32⟩
  | 5 => ⟨S4096x512, .f32⟩
  | 6 => ⟨S4096x512, .f32⟩
  | 7 => ⟨S4096x512, .f32⟩
  | 8 => ⟨S_, .f32⟩
  | 9 => ⟨S4096x512, .f32⟩
  | 10 => ⟨S4096x512, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_cst_8 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_v42 : Ref sig .tc := ⟨.hbm, 67, rfl⟩
abbrev main_cst_12 : Ref sig .tc := ⟨.hbm, 68, rfl⟩
abbrev main_v43 : Ref sig .tc := ⟨.hbm, 69, rfl⟩
abbrev main_v44 : Ref sig .tc := ⟨.hbm, 70, rfl⟩
abbrev main_cst_13 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_14 : Ref sig .tc := ⟨.hbm, 75, rfl⟩
abbrev main_v48 : Ref sig .tc := ⟨.hbm, 76, rfl⟩
abbrev main_v49 : Ref sig .tc := ⟨.hbm, 77, rfl⟩
abbrev main_cst_15 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_16 : Ref sig .tc := ⟨.hbm, 82, rfl⟩
abbrev main_v53 : Ref sig .tc := ⟨.hbm, 83, rfl⟩
abbrev main_v54 : Ref sig .tc := ⟨.hbm, 84, rfl⟩
abbrev main_cst_17 : Ref sig .tc := ⟨.hbm, 85, rfl⟩
abbrev main_v55 : Ref sig .tc := ⟨.hbm, 86, rfl⟩
abbrev main_v56 : Ref sig .tc := ⟨.hbm, 87, rfl⟩
abbrev main_cst_18 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_19 : Ref sig .tc := ⟨.hbm, 92, rfl⟩
abbrev main_cst_20 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v60 : Ref sig .tc := ⟨.hbm, 99, rfl⟩
abbrev main_cst_21 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_22 : Ref sig .tc := ⟨.hbm, 105, rfl⟩
abbrev main_v65 : Ref sig .tc := ⟨.hbm, 106, rfl⟩
abbrev main_v66 : Ref sig .tc := ⟨.hbm, 107, rfl⟩
abbrev main_cst_23 : Ref sig .tc := ⟨.hbm, 108, rfl⟩
abbrev main_v67 : Ref sig .tc := ⟨.hbm, 109, rfl⟩
abbrev main_v68 : Ref sig .tc := ⟨.hbm, 110, rfl⟩
abbrev main_cst_24 : Ref sig .tc := ⟨.hbm, 111, rfl⟩
abbrev main_v69 : Ref sig .tc := ⟨.hbm, 112, rfl⟩
abbrev main_v70 : Ref sig .tc := ⟨.hbm, 113, rfl⟩
abbrev main_cst_25 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_26 : Ref sig .tc := ⟨.hbm, 118, rfl⟩
abbrev main_v74 : Ref sig .tc := ⟨.hbm, 119, rfl⟩
abbrev main_v75 : Ref sig .tc := ⟨.hbm, 120, rfl⟩
abbrev main_cst_27 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_28 : Ref sig .tc := ⟨.hbm, 125, rfl⟩
abbrev main_v79 : Ref sig .tc := ⟨.hbm, 126, rfl⟩
abbrev main_v80 : Ref sig .tc := ⟨.hbm, 127, rfl⟩
abbrev main_cst_29 : Ref sig .tc := ⟨.hbm, 128, rfl⟩
abbrev main_v81 : Ref sig .tc := ⟨.hbm, 129, rfl⟩
abbrev main_v82 : Ref sig .tc := ⟨.hbm, 130, rfl⟩
abbrev main_cst_30 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_31 : Ref sig .tc := ⟨.hbm, 135, rfl⟩
abbrev main_cst_32 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_v86 : Ref sig .tc := ⟨.hbm, 142, rfl⟩
abbrev main_cst_33 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_34 : Ref sig .tc := ⟨.hbm, 147, rfl⟩
abbrev main_v90 : Ref sig .tc := ⟨.hbm, 148, rfl⟩
abbrev main_v91 : Ref sig .tc := ⟨.hbm, 149, rfl⟩
abbrev main_cst_35 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_36 : Ref sig .tc := ⟨.hbm, 154, rfl⟩
abbrev main_v95 : Ref sig .tc := ⟨.hbm, 155, rfl⟩
abbrev main_v96 : Ref sig .tc := ⟨.hbm, 156, rfl⟩
abbrev main_cst_37 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_cst_38 : Ref sig .tc := ⟨.hbm, 161, rfl⟩
abbrev main_v100 : Ref sig .tc := ⟨.hbm, 162, rfl⟩
abbrev main_v101 : Ref sig .tc := ⟨.hbm, 163, rfl⟩
abbrev main_cst_39 : Ref sig .tc := ⟨.hbm, 164, rfl⟩
abbrev main_v102 : Ref sig .tc := ⟨.hbm, 165, rfl⟩
abbrev main_v103 : Ref sig .tc := ⟨.hbm, 166, rfl⟩
abbrev main_cst_40 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_41 : Ref sig .tc := ⟨.hbm, 171, rfl⟩
abbrev main_cst_42 : Ref sig .tc := ⟨.hbm, 172, rfl⟩
abbrev main_call3_v0 : Ref sig .tc := ⟨.hbm, 173, rfl⟩
abbrev main_call3_v1 : Ref sig .tc := ⟨.hbm, 174, rfl⟩
abbrev main_call3_v2 : Ref sig .tc := ⟨.hbm, 175, rfl⟩
abbrev main_call3_v3 : Ref sig .tc := ⟨.hbm, 176, rfl⟩
abbrev main_call3_v4 : Ref sig .tc := ⟨.hbm, 177, rfl⟩
abbrev main_v107 : Ref sig .tc := ⟨.hbm, 178, rfl⟩
abbrev main_cst_43 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_cst_44 : Ref sig .tc := ⟨.hbm, 184, rfl⟩
abbrev main_v112 : Ref sig .tc := ⟨.hbm, 185, rfl⟩
abbrev main_v113 : Ref sig .tc := ⟨.hbm, 186, rfl⟩
abbrev main_cst_45 : Ref sig .tc := ⟨.hbm, 187, rfl⟩
abbrev main_v114 : Ref sig .tc := ⟨.hbm, 188, rfl⟩
abbrev main_v115 : Ref sig .tc := ⟨.hbm, 189, rfl⟩
abbrev main_cst_46 : Ref sig .tc := ⟨.hbm, 190, rfl⟩
abbrev main_v116 : Ref sig .tc := ⟨.hbm, 191, rfl⟩
abbrev main_v117 : Ref sig .tc := ⟨.hbm, 192, rfl⟩
abbrev main_cst_47 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_cst_48 : Ref sig .tc := ⟨.hbm, 197, rfl⟩
abbrev main_v121 : Ref sig .tc := ⟨.hbm, 198, rfl⟩
abbrev main_v122 : Ref sig .tc := ⟨.hbm, 199, rfl⟩
abbrev main_cst_49 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_cst_50 : Ref sig .tc := ⟨.hbm, 204, rfl⟩
abbrev main_v126 : Ref sig .tc := ⟨.hbm, 205, rfl⟩
abbrev main_v127 : Ref sig .tc := ⟨.hbm, 206, rfl⟩
abbrev main_cst_51 : Ref sig .tc := ⟨.hbm, 207, rfl⟩
abbrev main_v128 : Ref sig .tc := ⟨.hbm, 208, rfl⟩
abbrev main_v129 : Ref sig .tc := ⟨.hbm, 209, rfl⟩
abbrev main_cst_52 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_cst_53 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_cst_54 : Ref sig .tc := ⟨.hbm, 220, rfl⟩
abbrev main_v138 : Ref sig .tc := ⟨.hbm, 221, rfl⟩
abbrev main_v139 : Ref sig .tc := ⟨.hbm, 222, rfl⟩
abbrev main_cst_55 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_cst_56 : Ref sig .tc := ⟨.hbm, 227, rfl⟩
abbrev main_cst_57 : Ref sig .tc := ⟨.hbm, 228, rfl⟩
abbrev main_call4_v0 : Ref sig .tc := ⟨.hbm, 229, rfl⟩
abbrev main_call4_v1 : Ref sig .tc := ⟨.hbm, 230, rfl⟩
abbrev main_call4_v2 : Ref sig .tc := ⟨.hbm, 231, rfl⟩
abbrev main_call4_v3 : Ref sig .tc := ⟨.hbm, 232, rfl⟩
abbrev main_call4_v4 : Ref sig .tc := ⟨.hbm, 233, rfl⟩
abbrev main_v143 : Ref sig .tc := ⟨.hbm, 234, rfl⟩
abbrev main_cst_58 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_cst_59 : Ref sig .tc := ⟨.hbm, 239, rfl⟩
abbrev main_v147 : Ref sig .tc := ⟨.hbm, 240, rfl⟩
abbrev main_v148 : Ref sig .tc := ⟨.hbm, 241, rfl⟩
abbrev main_cst_60 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_cst_61 : Ref sig .tc := ⟨.hbm, 246, rfl⟩
abbrev main_v152 : Ref sig .tc := ⟨.hbm, 247, rfl⟩
abbrev main_v153 : Ref sig .tc := ⟨.hbm, 248, rfl⟩
abbrev main_cst_62 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_cst_63 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_cst_64 : Ref sig .tc := ⟨.hbm, 257, rfl⟩
abbrev main_v160 : Ref sig .tc := ⟨.hbm, 258, rfl⟩
abbrev main_v161 : Ref sig .tc := ⟨.hbm, 259, rfl⟩
abbrev main_cst_65 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_cst_66 : Ref sig .tc := ⟨.hbm, 264, rfl⟩
abbrev main_v165 : Ref sig .tc := ⟨.hbm, 265, rfl⟩
abbrev main_v166 : Ref sig .tc := ⟨.hbm, 266, rfl⟩

abbrev nD : Nat := 1
abbrev τ : Topo := Topo.v7x

variable {F : FTy → Type} [FloatOps F]

class Facts₀ : Prop where
  transposes_S2048x512_S512x2048_1_0 : S2048x512.Transposes [1, 0] S512x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  slices_S4096x2048_S4096x512_0_0 : S4096x2048.Slices ![0, 0] S4096x512
  slices_S4096x2048_S4096x512_0_512 : S4096x2048.Slices ![0, 512] S4096x512
  slices_S4096x2048_S4096x512_0_1024 : S4096x2048.Slices ![0, 1024] S4096x512
  slices_S4096x2048_S4096x512_0_1536 : S4096x2048.Slices ![0, 1536] S4096x512
  bcast_S_S4096x512 : S_.BroadcastsInDim S4096x512 (![] : Fin 0 → Fin S4096x512.rank)
  dot_S4096x512_S512x2048_S4096x2048_1_0_0_1_n_n_wf : DotDims.WF S4096x512 S512x2048 S4096x2048 [1] [0] [0] [1] [] []

variable [Facts₀]

def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf

class Facts : Prop extends Facts₀ where

variable [Facts]
-- ==== Proof.Cell.lean ====
/-
  The quantised LSTM cell as one function on the extended reals.

  Fixed-point stages, each a function of one extended real:
    * `quant s inv x = ⌊x·s + 1/2⌋·inv` rounds x half-up to a multiple of 1/s (s = 2^14 for the two gate
      pre-activations, s = 2^15 for the cell state);
    * `toQ27 x` rounds x to Q27 fixed point, clamps the integer to [-2^31, 2^31] and scales it back;
    * `requant y = ⌊⌊y·2^31 + 1/2⌋·2^-16 + 1/2⌋·2^-15` takes a Q31 activation down to Q15;
    * `qsig = requant ∘ logistic ∘ toQ27`, `qtanh = requant ∘ tanh ∘ toQ27`.
  A gate pre-activation at row r and gate column j is
      quant14 (Σ_k X(r,k)·Wih(j,k) + Bih(j)) + quant14 (Σ_k H(r,k)·Whh(j,k) + Bhh(j)),
  each of the two products rounded separately before they are added. Columns q, 512+q, 1024+q, 1536+q of a row are
  the input, forget, cell and output gates of hidden unit q. The new cell state before its last rounding is
      c' = quant15 (C(r,q))·qsig(forget) + qsig(input)·qtanh(cell),
  and the two results are  hy = qtanh(c')·qsig(output)  and  cy = quant15 (c').
-/
import Idealize.ShloMosaic.PureOps.Ideal
import Idealize.ShloMosaic.Lib.ValueIdx

noncomputable section

namespace Cert.QCell

open Idealize.ShloMosaic Idealize.ShloMosaic.ValueIdx
open scoped BigOperators

/-- The greatest integer below an extended real; the infinities are fixed. -/
def fl (x : EReal) : EReal := Ideal.liftRound Int.floor x

/-- Round half-up to a multiple of 1/s, with `inv` the reciprocal of `s`: ⌊x·s + 1/2⌋·inv. -/
def quant (s inv x : EReal) : EReal := fl (x * s + Ideal.ofBits .f32 0x3F000000#32) * inv

/-- Rounding to a multiple of 2^-14. -/
def q14 (x : EReal) : EReal := quant (Ideal.ofBits .f32 0x46800000#32) (Ideal.ofBits .f32 0x38800000#32) x

/-- Rounding to a multiple of 2^-15. -/
def q15 (x : EReal) : EReal := quant (Ideal.ofBits .f32 0x47000000#32) (Ideal.ofBits .f32 0x38000000#32) x

/-- x as a Q27 integer clamped to [-2^31, 2^31]. -/
def clampQ27 (x : EReal) : EReal :=
  min (Ideal.ofBits .f32 0x4F000000#32)
    (max (Ideal.ofBits .f32 0xCF000000#32) (fl (x * Ideal.ofBits .f32 0x4D000000#32 + Ideal.ofBits .f32 0x3F000000#32)))

/-- x rounded to Q27 fixed point, clamped, and scaled back to a number. -/
def toQ27 (x : EReal) : EReal := clampQ27 x * Ideal.ofBits .f32 0x32000000#32

/-- A Q31 activation's integer: ⌊y·2^31 + 1/2⌋. -/
def toQ31 (y : EReal) : EReal := fl (y * Ideal.ofBits .f32 0x4F000000#32 + Ideal.ofBits .f32 0x3F000000#32)

/-- A Q31 integer taken down to Q15 and scaled back: ⌊n·2^-16 + 1/2⌋·2^-15. -/
def fromQ31 (n : EReal) : EReal :=
  fl (n * Ideal.ofBits .f32 0x37800000#32 + Ideal.ofBits .f32 0x3F000000#32) * Ideal.ofBits .f32 0x38000000#32

/-- The quantised logistic gate. -/
def qsig (x : EReal) : EReal := fromQ31 (toQ31 (Ideal.logistic (toQ27 x)))

/-- The quantised hyperbolic tangent. -/
def qtanh (x : EReal) : EReal := fromQ31 (toQ31 (Ideal.tanh (toQ27 x)))

/-- A gate pre-activation from its two affine parts: each rounded to 2^-14 by itself, then added. -/
def gateVal (a b : EReal) : EReal := q14 a + q14 b

/-- A gate pre-activation from a row of the input, a row of the hidden state, the gate's two weight rows and its two
    biases. -/
def gateOf (x h wi wh : Fin 512 → EReal) (bi bh : EReal) : EReal :=
  gateVal ((∑ k : Fin 512, x k * wi k) + bi) ((∑ k : Fin 512, h k * wh k) + bh)

/-- The new cell state before its last rounding, from the old state and the input, forget and cell gates. -/
def cellPre (cx gi gf gg : EReal) : EReal := q15 cx * qsig gf + qsig gi * qtanh gg

/-- The new hidden state of one unit. -/
def hyCell (cx gi gf gg go : EReal) : EReal := qtanh (cellPre cx gi gf gg) * qsig go

/-- The new cell state of one unit. -/
def cyCell (cx gi gf gg : EReal) : EReal := q15 (cellPre cx gi gf gg)

/-- Gate column `o + q` of the 2048 gate columns, for a hidden unit `q` and a gate's offset `o`. -/
def col (o : ℕ) (ho : o + 512 ≤ 2048) (q : Fin 512) : Fin 2048 := ⟨o + q.val, by have := q.isLt; omega⟩

/-- The new hidden state of unit `q` from the row's 2048 gate pre-activations and the unit's old cell state. -/
def hyOf (gate : Fin 2048 → EReal) (cx : EReal) (q : Fin 512) : EReal :=
  hyCell cx (gate (col 0 (by omega) q)) (gate (col 512 (by omega) q)) (gate (col 1024 (by omega) q)) (gate (col 1536 (by omega) q))

/-- The new cell state of unit `q` from the row's gate pre-activations and the unit's old cell state. -/
def cyOf (gate : Fin 2048 → EReal) (cx : EReal) (q : Fin 512) : EReal :=
  cyCell cx (gate (col 0 (by omega) q)) (gate (col 512 (by omega) q)) (gate (col 1024 (by omega) q))

section Arrays

variable (X H C : (⟨2, ![4096, 512]⟩ : Shape).Idx → EReal) (Wih Whh : (⟨2, ![2048, 512]⟩ : Shape).Idx → EReal)
  (Bih Bhh : (⟨1, ![2048]⟩ : Shape).Idx → EReal)

/-- Row `r`'s pre-activation of gate column `j`, from the whole argument arrays. -/
def gates (r : Fin 4096) (j : Fin 2048) : EReal :=
  gateOf (fun k => X (ix2 r k)) (fun k => H (ix2 r k)) (fun k => Wih (ix2 j k)) (fun k => Whh (ix2 j k))
    (Bih (ix1 j)) (Bhh (ix1 j))

/-- The new hidden state at row `r`, unit `q`. -/
def hyAt (r : Fin 4096) (q : Fin 512) : EReal := hyOf (gates X H Wih Whh Bih Bhh r) (C (ix2 r q)) q

/-- The new cell state at row `r`, unit `q`. -/
def cyAt (r : Fin 4096) (q : Fin 512) : EReal := cyOf (gates X H Wih Whh Bih Bhh r) (C (ix2 r q)) q

/-- The new hidden state as an array. -/
def hyArr : (⟨2, ![4096, 512]⟩ : Shape).Idx → EReal := fun i => hyAt X H C Wih Whh Bih Bhh (i 0) (i 1)

/-- The new cell state as an array. -/
def cyArr : (⟨2, ![4096, 512]⟩ : Shape).Idx → EReal := fun i => cyAt X H C Wih Whh Bih Bhh (i 0) (i 1)

theorem hyArr_ix2 (r : Fin 4096) (q : Fin 512) :
    hyArr X H C Wih Whh Bih Bhh (ix2 r q) = hyAt X H C Wih Whh Bih Bhh r q := rfl

theorem cyArr_ix2 (r : Fin 4096) (q : Fin 512) :
    cyArr X H C Wih Whh Bih Bhh (ix2 r q) = cyAt X H C Wih Whh Bih Bhh r q := rfl

end Arrays

end Cert.QCell

end
-- ==== Proof.LibDenseT.lean ====
/-
  General lemmas for a matrix product whose right operand is stored transposed, over variable extents, at the
  extended reals.

  * `trans_sum`: for the dimension numbers "M×K by N×K" (contract the left operand's axis 1 with the right
    operand's axis 1, no batch axis), the sum over the contraction index of the operands' products at the result
    index (i, j) is `∑ k : Fin K, l (i, k) * r (j, k)`.
  * `matmul_zero_trans` / `dotGeneral_trans`: hence a vector-unit matrix product into a zero accumulator, and the
    host's `dot_general`, read at (i, j), are both that sum.
-/
import Idealize.ShloMosaic.Lib.ValueIdx
import Idealize.ShloMosaic.Lib.Pipeline.Value
import Idealize.ShloMosaic.PureOps.Ideal.Laws

noncomputable section

namespace Cert.LibDenseT

open Idealize.ShloMosaic Idealize.ShloMosaic.ValueIdx

/-- The dimension numbers `<[1], [1], [0], [0], [], []>` over any well-formedness witness: two records with these
    axis lists differ only in that witness, so every printed record of this kind is one of these by unfolding. -/
abbrev transOf {M K N : Nat}
    (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  { lhsContracting := [1], rhsContracting := [1], lhsNonContracting := [0], rhsNonContracting := [0],
    lhsBatch := [], rhsBatch := [], wf := wf }

variable {M K N : Nat} (wf : DotDims.WF (⟨2, ![M, K]⟩ : Shape) ⟨2, ![N, K]⟩ ⟨2, ![M, N]⟩ [1] [1] [0] [0] [] [])

/-- The left operand's row is the result's row. -/
theorem lhs_row (i : (⟨2, ![M, N]⟩ : Shape).Idx) (q : (transOf wf).contr.Idx) :
    ((transOf wf).lhsIdx i q 0).val = (i 0).val := by
  unfold DotDims.lhsIdx
  rw [dif_neg (show ¬(0 : Fin 2) ∈ (transOf wf).lhsBatch from List.not_mem_nil),
    dif_pos (show (0 : Fin 2) ∈ (transOf wf).lhsNonContracting from List.mem_singleton.mpr rfl)]
  rfl

/-- The right operand's row is the result's column. -/
theorem rhs_row (i : (⟨2, ![M, N]⟩ : Shape).Idx) (q : (transOf wf).contr.Idx) :
    ((transOf wf).rhsIdx i q 0).val = (i 1).val := by
  unfold DotDims.rhsIdx
  rw [dif_neg (show ¬(0 : Fin 2) ∈ (transOf wf).rhsBatch from List.not_mem_nil),
    dif_pos (show (0 : Fin 2) ∈ (transOf wf).rhsNonContracting from List.mem_singleton.mpr rfl)]
  rfl

/-- The contraction sum at (i, j), re-indexed by the one contracted coordinate. -/
theorem trans_sum (l : (⟨2, ![M, K]⟩ : Shape).Idx → EReal) (r : (⟨2, ![N, K]⟩ : Shape).Idx → EReal)
    (i : Fin M) (j : Fin N) :
    ∑ q : (transOf wf).contr.Idx, l ((transOf wf).lhsIdx (ix2 i j) q) * r ((transOf wf).rhsIdx (ix2 i j) q)
      = ∑ k : Fin K, l (ix2 i k) * r (ix2 j k) := by
  rw [← Equiv.sum_comp (contrEquiv1 (transOf wf) K rfl rfl).symm]
  refine Finset.sum_congr rfl fun k _ => ?_
  have hk := contrEquiv1_symm_val (transOf wf) K rfl rfl k
  have el : (transOf wf).lhsIdx (ix2 i j) ((contrEquiv1 (transOf wf) K rfl rfl).symm k) = ix2 i k :=
    funext fun a => Fin.ext (by
      match a with
      | ⟨0, _⟩ => exact lhs_row wf _ _
      | ⟨1, _⟩ => exact ((transOf wf).lhsIdx_val_of_single rfl _ _).trans hk)
  have er : (transOf wf).rhsIdx (ix2 i j) ((contrEquiv1 (transOf wf) K rfl rfl).symm k) = ix2 j k :=
    funext fun a => Fin.ext (by
      match a with
      | ⟨0, _⟩ => exact rhs_row wf _ _
      | ⟨1, _⟩ => exact ((transOf wf).rhsIdx_val_of_single rfl _ _).trans hk)
  rw [el, er]

/-- A matrix product on the vector unit into the zero accumulator, read at (i, j). -/
theorem matmul_zero_trans {φ₁ φ₂ : FTy} (prec : Option ContractPrecision)
    (l : FVec Ideal (⟨2, ![M, K]⟩ : Shape) φ₁) (r : FVec Ideal (⟨2, ![N, K]⟩ : Shape) φ₂) (i : Fin M) (j : Fin N) :
    FloatOps.matmul (transOf wf) prec l r (constant (⟨2, ![M, N]⟩ : Shape) .f32 0x00000000#32) (ix2 i j)
      = ∑ k : Fin K, l (ix2 i k) * r (ix2 j k) :=
  (Ideal.matmul_constant_zero_apply (transOf wf) prec l r (ix2 i j)).trans (trans_sum wf l r i j)

/-- The host's `dot_general` with the same dimension numbers, read at (i, j): the same sum. -/
theorem dotGeneral_trans {φ₁ φ₂ : FTy} (prec : Option ContractPrecision) (sched : HostSchedule)
    (l : FVec Ideal (⟨2, ![M, K]⟩ : Shape) φ₁) (r : FVec Ideal (⟨2, ![N, K]⟩ : Shape) φ₂) (i : Fin M) (j : Fin N) :
    FloatOps.dotGeneral (transOf wf) prec sched l r (ix2 i j) = ∑ k : Fin K, l (ix2 i k) * r (ix2 j k) :=
  (Ideal.dotGeneral_apply (transOf wf) prec sched l r (ix2 i j)).trans (trans_sum wf l r i j)

end Cert.LibDenseT

end
-- ==== Proof.LibTiles.lean ====
/-
  Tiles of matrices read at an index, over variable extents. A block of columns cut out of a matrix reads the matrix
  at the shifted column. A plain matrix product into a zero accumulator, at the extended reals, is at (p, c) the sum
  over the shared axis of the left factor's row p times the right factor's column c. A four-term sum written as a left
  nest, alone or on top of a first term, is the sum over `Fin 4`. The float words of 0 and 1 are 0 and 1.
-/
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx
open scoped BigOperators

variable {α : Type}

/-- Columns `o … o + C' − 1` of an `[R, C]` matrix, read at `(p, j)`: the matrix at `(p, o + j)`. -/
theorem sliceCols_apply {R C C' : ℕ} (o : ℕ) (v : (⟨2, ![R, C]⟩ : Shape).Idx → α)
    (h : (⟨2, ![R, C]⟩ : Shape).Slices ![0, o] ⟨2, ![R, C']⟩) (p : Fin R) (j : Fin C') (hj : o + j.val < C) :
    extractStridedSlice ⟨2, ![R, C']⟩ ![0, o] v h (ix2 p j) = v (ix2 p ⟨o + j.val, hj⟩) :=
  extractStridedSlice_apply ![0, o] v h (ix2 p j) (ix2 p ⟨o + j.val, hj⟩) (fun a => match a with
    | ⟨0, _⟩ => by show p.val = 0 + p.val; omega
    | ⟨1, _⟩ => rfl)

/-- A plain `[M, K] · [K, N]` product into the zero accumulator, read at `(p, c)` at the extended reals: the sum over
    the shared axis. The four hypotheses say which coordinates the product's dimension numbers pair up. -/
theorem matmul_plain_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂) (p : Fin M) (c : Fin N) :
    matmul d prec lhs rhs (constant (F := Ideal) ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- Four terms added left to right are their sum over `Fin 4`. -/
theorem sum4_nest {M : Type*} [AddCommMonoid M] (f : Fin 4 → M) : ((f 0 + f 1) + f 2) + f 3 = ∑ k : Fin 4, f k :=
  (Fin.sum_univ_four f).symm

/-- Four terms added one after another on top of a first one are the first plus their sum over `Fin 4`. -/
theorem acc4_nest {M : Type*} [AddCommMonoid M] (a : M) (f : Fin 4 → M) :
    (((a + f 0) + f 1) + f 2) + f 3 = a + ∑ k : Fin 4, f k := by
  rw [Fin.sum_univ_four, add_assoc, add_assoc, add_assoc, add_assoc, add_assoc]

/-- The f32 word `0x3F800000` is the number one. -/
theorem one_f32 : Ideal.ofBits .f32 0x3F800000#32 = 1 := by
  simp [Ideal.ofBits, Ideal.ieee, -EReal.coe_mul]; norm_num

end Cert.LibTiles

end
-- ==== Proof.KerSide.lean ====
/-
  The kernel body's arithmetic, read at an index of a row block.

  The body works on a block of 256 rows. Its first stage is the 2048 gate pre-activations of each row: two matrix
  products against the weight matrices stored row-per-gate-column, each with its bias row added and rounded to a
  multiple of 2^-14 by itself, then summed. At (p, j) that is `gateOf` of row p of the input block, row p of the hidden
  block, rows j of the two weight matrices and entries j of the two bias rows. Every later stage is pointwise in the hidden
  unit q and reads the gate columns q, 512 + q, 1024 + q, 1536 + q of the same row p; so the two stored values at (p, q)
  are `hyOf` and `cyOf` of that row's gates and the old cell state at (p, q).
-/
import proofs.«113803_j63153199121065_2_alg».proof.Proof.Gen.KernelIdeal.Skeleton
import proofs.«113803_j63153199121065_2_alg».proof.Proof.Cell
import proofs.«113803_j63153199121065_2_alg».proof.Proof.LibDenseT
import proofs.«113803_j63153199121065_2_alg».proof.Proof.LibTiles
import Idealize.ShloMosaic.Lib.ValueIdx
import Idealize.ShloMosaic.Lib.ValueLayout
import Idealize.ShloMosaic.Lib.Pipeline.Value

noncomputable section

namespace Cert.QCell.Ker

open Cert.KernelIdeal Cert.KernelIdeal.Gen Idealize.ShloMosaic Idealize.ShloMosaic.ValueIdx Cert.QCell
open scoped BigOperators

/-- A rounding down at an index rounds the element. -/
theorem floor_at {s : Shape} (a : FVec Ideal s .f32) (i : s.Idx) : floor a i = fl (a i) := rfl

/-- A logistic function at an index is the logistic function of the element. -/
theorem logistic_at {s : Shape} (a : FVec Ideal s .f32) (i : s.Idx) : logistic a i = Ideal.logistic (a i) := rfl

/-- A hyperbolic tangent at an index is the hyperbolic tangent of the element. -/
theorem tanh_at {s : Shape} (a : FVec Ideal s .f32) (i : s.Idx) : tanh a i = Ideal.tanh (a i) := rfl

/-- The gates of row p of the block: column j is `gateOf` of the row's input and hidden entries, the two weight rows j and
    the two biases at j. -/
def rowGates (x0 x1 : Vec Ideal S256x512 .f32) (x3 x4 : Vec Ideal S2048x512 .f32) (x5 x6 : Vec Ideal S1x2048 .f32)
    (p : Fin 256) : Fin 2048 → EReal := fun j =>
  gateOf (fun k => x0 (ix2 p k)) (fun k => x1 (ix2 p k)) (fun k => x3 (ix2 j k)) (fun k => x4 (ix2 j k))
    (x5 (ix2 (0 : Fin 1) j)) (x6 (ix2 (0 : Fin 1) j))

/-- The first stage at (p, j): the two products with their biases, each rounded to 2^-14, summed. -/
theorem gates_at (x0 x1 : Vec Ideal S256x512 .f32) (x3 x4 : Vec Ideal S2048x512 .f32) (x5 x6 : Vec Ideal S1x2048 .f32)
    (p : Fin 256) (j : Fin 2048) :
    k0_pay3 (F := Ideal) x0 x1 x3 x4 x5 x6 (ix2 p j) = rowGates x0 x1 x3 x4 x5 x6 p j := by
  have m1 : matmul (φ₁ := .f32) (φ₂ := .f32) dot_S256x512_S2048x512_S256x2048_1_1_0_0_n_n (some .fp32) x0 x3 (constant (F := Ideal) S256x2048 .f32 0x00000000#32) (ix2 p j)
      = ∑ k : Fin 512, x0 (ix2 p k) * x3 (ix2 j k) :=
    LibDenseT.matmul_zero_trans (φ₁ := .f32) (φ₂ := .f32) dot_S256x512_S2048x512_S256x2048_1_1_0_0_n_n_wf (some .fp32) x0 x3 p j
  have m2 : matmul (φ₁ := .f32) (φ₂ := .f32) dot_S256x512_S2048x512_S256x2048_1_1_0_0_n_n (some .fp32) x1 x4 (constant (F := Ideal) S256x2048 .f32 0x00000000#32) (ix2 p j)
      = ∑ k : Fin 512, x1 (ix2 p k) * x4 (ix2 j k) :=
    LibDenseT.matmul_zero_trans (φ₁ := .f32) (φ₂ := .f32) dot_S256x512_S2048x512_S256x2048_1_1_0_0_n_n_wf (some .fp32) x1 x4 p j
  have b1 : broadcastTo S256x2048 (shapeCast S1x2048 x5 shapeCasts_S1x2048_S1x2048) broadcasts_S1x2048_S256x2048 (ix2 p j)
      = x5 (ix2 (0 : Fin 1) j) :=
    (broadcastTo_1b_ab_apply _ broadcasts_S1x2048_S256x2048 p j).trans
      (congrFun (shapeCast_self x5 shapeCasts_S1x2048_S1x2048) _)
  have b2 : broadcastTo S256x2048 (shapeCast S1x2048 x6 shapeCasts_S1x2048_S1x2048) broadcasts_S1x2048_S256x2048 (ix2 p j)
      = x6 (ix2 (0 : Fin 1) j) :=
    (broadcastTo_1b_ab_apply _ broadcasts_S1x2048_S256x2048 p j).trans
      (congrFun (shapeCast_self x6 shapeCasts_S1x2048_S1x2048) _)
  unfold k0_pay3
  simp only [addf_apply, mulf_apply, broadcast_apply, floor_at]
  rw [m1, m2, b1, b2]
  rfl

/-- Gate columns o … o + 511 cut out of the 2048 and read at (p, q): column o + q. -/
theorem slice_at (o : ℕ) (ho : o + 512 ≤ 2048) (v : FVec Ideal S256x2048 .f32) (h : S256x2048.Slices ![0, o] S256x512)
    (p : Fin 256) (q : Fin 512) :
    extractStridedSlice S256x512 ![0, o] v h (ix2 p q) = v (ix2 p (col o ho q)) :=
  LibTiles.sliceCols_apply o v h p q (by have := q.isLt; omega)

/-- The stored hidden-state product at an index. -/
theorem pay1_at (v128 v163 : FVec Ideal S256x512 .f32) (i : S256x512.Idx) :
    k0_pay1 (F := Ideal) v128 v163 i = v163 i * v128 i := rfl

/-- The last rounding of the cell state, at an index. -/
theorem pay2_at (v139 : FVec Ideal S256x512 .f32) (i : S256x512.Idx) :
    k0_pay2 (F := Ideal) v139 i = q15 (v139 i) := rfl

/-- The input gate's Q27 integer before clamping, at (p, q): from gate column q. -/
theorem pay4_at (x0 x1 : Vec Ideal S256x512 .f32) (x3 x4 : Vec Ideal S2048x512 .f32) (x5 x6 : Vec Ideal S1x2048 .f32)
    (p : Fin 256) (q : Fin 512) :
    k0_pay4 (F := Ideal) x0 x1 x3 x4 x5 x6 (ix2 p q)
      = fl (k0_pay3 (F := Ideal) x0 x1 x3 x4 x5 x6 (ix2 p (col 0 (by omega) q)) * Ideal.ofBits .f32 0x4D000000#32 + Ideal.ofBits .f32 0x3F000000#32) := by
  unfold k0_pay4
  simp only [addf_apply, mulf_apply, broadcast_apply, floor_at]
  rw [slice_at 0 (by omega)]
  rfl

/-- The input gate from its Q27 integer: clamp, scale back, logistic, requantise. -/
theorem pay5_at (v34 : FVec Ideal S256x512 .f32) (i : S256x512.Idx) :
    k0_pay5 (F := Ideal) v34 (Scalar.ofBits .f32 0xCF000000#32) (Scalar.ofBits .f32 0x4F000000#32) i
      = fromQ31 (toQ31 (Ideal.logistic (min (Ideal.ofBits .f32 0x4F000000#32) (max (Ideal.ofBits .f32 0xCF000000#32) (v34 i)) * Ideal.ofBits .f32 0x32000000#32))) := rfl

/-- The forget gate at (p, q): the quantised logistic of gate column 512 + q. -/
theorem pay6_at (v28 : FVec Ideal S256x2048 .f32) (p : Fin 256) (q : Fin 512) :
    k0_pay6 (F := Ideal) v28 (ix2 p q) = qsig (v28 (ix2 p (col 512 (by omega) q))) := by
  unfold k0_pay6
  simp only [addf_apply, mulf_apply, broadcast_apply, floor_at, logistic_at, tanh_at, maximumf_apply, minimumf_apply]
  rw [slice_at 512 (by omega)]
  rfl

/-- The cell gate at (p, q): the quantised hyperbolic tangent of gate column 1024 + q. -/
theorem pay7_at (v28 : FVec Ideal S256x2048 .f32) (p : Fin 256) (q : Fin 512) :
    k0_pay7 (F := Ideal) v28 (ix2 p q) = qtanh (v28 (ix2 p (col 1024 (by omega) q))) := by
  unfold k0_pay7
  simp only [addf_apply, mulf_apply, broadcast_apply, floor_at, logistic_at, tanh_at, maximumf_apply, minimumf_apply]
  rw [slice_at 1024 (by omega)]
  rfl

/-- The output gate's Q31 integer at (p, q): from gate column 1536 + q. -/
theorem pay8_at (v28 : FVec Ideal S256x2048 .f32) (p : Fin 256) (q : Fin 512) :
    k0_pay8 (F := Ideal) v28 (ix2 p q) = toQ31 (Ideal.logistic (toQ27 (v28 (ix2 p (col 1536 (by omega) q))))) := by
  unfold k0_pay8
  simp only [addf_apply, mulf_apply, broadcast_apply, floor_at, logistic_at, tanh_at, maximumf_apply, minimumf_apply]
  rw [slice_at 1536 (by omega)]
  rfl

/-- The output gate from its Q31 integer. -/
theorem pay9_at (v121 : FVec Ideal S256x512 .f32) (i : S256x512.Idx) :
    k0_pay9 (F := Ideal) v121 i = fromQ31 (v121 i) := rfl

/-- The new cell state before its last rounding, at an index. -/
theorem pay10_at (v53 v78 v103 : FVec Ideal S256x512 .f32) (v129 : Vec Ideal S256x512 .f32) (i : S256x512.Idx) :
    k0_pay10 (F := Ideal) v53 v78 v103 v129 i = q15 (v129 i) * v78 i + v53 i * v103 i := rfl

/-- The quantised hyperbolic tangent of the new cell state, at an index. -/
theorem pay11_at (v53 v78 v103 : FVec Ideal S256x512 .f32) (v129 : Vec Ideal S256x512 .f32) (i : S256x512.Idx) :
    k0_pay11 (F := Ideal) v53 v78 v103 v129 i = qtanh (k0_pay10 (F := Ideal) v53 v78 v103 v129 i) := by
  unfold k0_pay11
  simp only [addf_apply, mulf_apply, broadcast_apply, floor_at, tanh_at, maximumf_apply, minimumf_apply]
  rfl

/-- The new cell state before its last rounding, at (p, q), from the row's gates and the old cell state. -/
theorem cell_at (x0 x1 x2 : Vec Ideal S256x512 .f32) (x3 x4 : Vec Ideal S2048x512 .f32) (x5 x6 : Vec Ideal S1x2048 .f32)
    (p : Fin 256) (q : Fin 512) :
    k0_pay10 (F := Ideal)
        (k0_pay5 (k0_pay4 x0 x1 x3 x4 x5 x6) (Scalar.ofBits .f32 0xCF000000#32) (Scalar.ofBits .f32 0x4F000000#32))
        (k0_pay6 (k0_pay3 x0 x1 x3 x4 x5 x6)) (k0_pay7 (k0_pay3 x0 x1 x3 x4 x5 x6)) x2 (ix2 p q)
      = cellPre (x2 (ix2 p q)) (rowGates x0 x1 x3 x4 x5 x6 p (col 0 (by omega) q))
          (rowGates x0 x1 x3 x4 x5 x6 p (col 512 (by omega) q)) (rowGates x0 x1 x3 x4 x5 x6 p (col 1024 (by omega) q)) := by
  rw [pay10_at, pay5_at, pay4_at, pay6_at, pay7_at, gates_at, gates_at, gates_at]
  rfl

/-- The stored hidden state at (p, q). -/
theorem hy_at (x0 x1 x2 : Vec Ideal S256x512 .f32) (x3 x4 : Vec Ideal S2048x512 .f32) (x5 x6 : Vec Ideal S1x2048 .f32)
    (p : Fin 256) (q : Fin 512) :
    k0_pay1 (F := Ideal) (k0_pay9 (k0_pay8 (k0_pay3 x0 x1 x3 x4 x5 x6)))
        (k0_pay11 (k0_pay5 (k0_pay4 x0 x1 x3 x4 x5 x6) (Scalar.ofBits .f32 0xCF000000#32) (Scalar.ofBits .f32 0x4F000000#32))
          (k0_pay6 (k0_pay3 x0 x1 x3 x4 x5 x6)) (k0_pay7 (k0_pay3 x0 x1 x3 x4 x5 x6)) x2) (ix2 p q)
      = hyOf (rowGates x0 x1 x3 x4 x5 x6 p) (x2 (ix2 p q)) q := by
  rw [pay1_at, pay11_at, cell_at, pay9_at, pay8_at, gates_at]
  rfl

/-- The stored cell state at (p, q). -/
theorem cy_at (x0 x1 x2 : Vec Ideal S256x512 .f32) (x3 x4 : Vec Ideal S2048x512 .f32) (x5 x6 : Vec Ideal S1x2048 .f32)
    (p : Fin 256) (q : Fin 512) :
    k0_pay2 (F := Ideal)
        (k0_pay10 (k0_pay5 (k0_pay4 x0 x1 x3 x4 x5 x6) (Scalar.ofBits .f32 0xCF000000#32) (Scalar.ofBits .f32 0x4F000000#32))
          (k0_pay6 (k0_pay3 x0 x1 x3 x4 x5 x6)) (k0_pay7 (k0_pay3 x0 x1 x3 x4 x5 x6)) x2) (ix2 p q)
      = cyOf (rowGates x0 x1 x3 x4 x5 x6 p) (x2 (ix2 p q)) q := by
  rw [pay2_at, cell_at]
  rfl

end Cert.QCell.Ker

end
-- ==== Proof.Blocks.lean ====
/-
  From the kernel's sixteen row blocks to its two result arrays.

  Grid point t works on rows 256·t … 256·t + 255: the input, hidden-state and cell-state windows and the two output
  windows move with t along the rows; the two weight matrices and the two bias rows are the same whole block at every
  point. The bias rows are the bias vectors laid out as one row of 2048 by the host before the launch. So what the body
  computes at (p, q) of point t's block is the cell of Cell.lean at row 256·t + p, unit q of the whole argument arrays;
  the sixteen blocks tile each output array, hence after the run each output array IS the cell's array.
-/
import proofs.«113803_j63153199121065_2_alg».proof.Proof.Gen.KernelIdeal.Value
import proofs.«113803_j63153199121065_2_alg».proof.Proof.KerSide
import proofs.«113803_j63153199121065_2_alg».proof.Proof.Cell
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.QCell.Blocks

open Cert.KernelIdeal Cert.KernelIdeal.Gen Idealize.ShloMosaic Idealize.ShloMosaic.TcCoe Idealize.SL.Sem
open Idealize.ShloMosaic.ValueIdx Idealize.ShloMosaic.StableHlo Cert.QCell
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the sixteen grid points: the three row-tiled input windows and the two
    output windows sit at block row t, block column 0; the weight and bias windows at block (0, 0). -/
theorem idx_facts : ∀ t : Fin cfg0.N, t.val < 16
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0 ∧ win0_4.index t (0 : Fin 2) = 0 ∧ win0_4.index t (1 : Fin 2) = 0
        ∧ win0_5.index t (0 : Fin 2) = 0 ∧ win0_5.index t (1 : Fin 2) = 0 ∧ win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Row p of grid point t's block is row 256·t + p of the array. -/
def row (t : Fin cfg0.N) (p : Fin 256) : Fin 4096 :=
  ⟨256 * t.val + p.val, by have := (idx_facts t).1; have := p.isLt; omega⟩

/-- Point t's block of the input is rows 256·t … of the input array. -/
theorem blk0_at (c : Dev nD) (t : Fin cfg0.N) (p : Fin 256) (k : Fin 512) :
    (iblk m c 0 t : Vec Ideal S256x512 .f32) (ix2 p k) = ((m ((c : Thread nD τ).loc main_arg0)) : S4096x512.Idx → EReal) (ix2 (row t p) k) := by
  obtain ⟨ht, e0, e1, e2, e3, e7, e8⟩ := idx_facts t
  rw [← V_main_arg0 m c]
  show V m c main_arg0 (((cfg0.win 0).blk t).view.emb (ix2 p k)) = V m c main_arg0 (ix2 (row t p) k)
  refine congrArg (V m c main_arg0) (funext fun a => Fin.ext ?_)
  match a with
  | ⟨0, _⟩ => show win0_0.index t (0 : Fin 2) * 256 + 1 * p.val = 256 * t.val + p.val; omega
  | ⟨1, _⟩ => show win0_0.index t (1 : Fin 2) * 512 + 1 * k.val = k.val; omega

/-- Point t's block of the hidden state is rows 256·t … of the hidden-state array. -/
theorem blk1_at (c : Dev nD) (t : Fin cfg0.N) (p : Fin 256) (k : Fin 512) :
    (iblk m c 1 t : Vec Ideal S256x512 .f32) (ix2 p k) = ((m ((c : Thread nD τ).loc main_arg1)) : S4096x512.Idx → EReal) (ix2 (row t p) k) := by
  obtain ⟨ht, e0, e1, e2, e3, e7, e8⟩ := idx_facts t
  rw [← V_main_arg1 m c]
  show V m c main_arg1 (((cfg0.win 1).blk t).view.emb (ix2 p k)) = V m c main_arg1 (ix2 (row t p) k)
  refine congrArg (V m c main_arg1) (funext fun a => Fin.ext ?_)
  match a with
  | ⟨0, _⟩ => show win0_1.index t (0 : Fin 2) * 256 + 1 * p.val = 256 * t.val + p.val; omega
  | ⟨1, _⟩ => show win0_1.index t (1 : Fin 2) * 512 + 1 * k.val = k.val; omega

/-- Point t's block of the cell state is rows 256·t … of the cell-state array. -/
theorem blk2_at (c : Dev nD) (t : Fin cfg0.N) (p : Fin 256) (k : Fin 512) :
    (iblk m c 2 t : Vec Ideal S256x512 .f32) (ix2 p k) = ((m ((c : Thread nD τ).loc main_arg2)) : S4096x512.Idx → EReal) (ix2 (row t p) k) := by
  obtain ⟨ht, e0, e1, e2, e3, e7, e8⟩ := idx_facts t
  rw [← V_main_arg2 m c]
  show V m c main_arg2 (((cfg0.win 2).blk t).view.emb (ix2 p k)) = V m c main_arg2 (ix2 (row t p) k)
  refine congrArg (V m c main_arg2) (funext fun a => Fin.ext ?_)
  match a with
  | ⟨0, _⟩ => show win0_2.index t (0 : Fin 2) * 256 + 1 * p.val = 256 * t.val + p.val; omega
  | ⟨1, _⟩ => show win0_2.index t (1 : Fin 2) * 512 + 1 * k.val = k.val; omega

/-- The input weights' block is the whole matrix at every point. -/
theorem blk3_at (c : Dev nD) (t : Fin cfg0.N) (j : Fin 2048) (k : Fin 512) :
    (iblk m c 3 t : Vec Ideal S2048x512 .f32) (ix2 j k) = ((m ((c : Thread nD τ).loc main_arg3)) : S2048x512.Idx → EReal) (ix2 j k) := by
  obtain ⟨ht, e0, e1, e2, e3, e7, e8⟩ := idx_facts t
  rw [← V_main_arg3 m c]
  show V m c main_arg3 (((cfg0.win 3).blk t).view.emb (ix2 j k)) = V m c main_arg3 (ix2 j k)
  refine congrArg (V m c main_arg3) (funext fun a => Fin.ext ?_)
  match a with
  | ⟨0, _⟩ => show win0_3.index t (0 : Fin 2) * 2048 + 1 * j.val = j.val; omega
  | ⟨1, _⟩ => show win0_3.index t (1 : Fin 2) * 512 + 1 * k.val = k.val; omega

/-- The hidden weights' block is the whole matrix at every point. -/
theorem blk4_at (c : Dev nD) (t : Fin cfg0.N) (j : Fin 2048) (k : Fin 512) :
    (iblk m c 4 t : Vec Ideal S2048x512 .f32) (ix2 j k) = ((m ((c : Thread nD τ).loc main_arg4)) : S2048x512.Idx → EReal) (ix2 j k) := by
  obtain ⟨ht, e0, e1, e2, e3, e7, e8⟩ := idx_facts t
  rw [← V_main_arg4 m c]
  show V m c main_arg4 (((cfg0.win 4).blk t).view.emb (ix2 j k)) = V m c main_arg4 (ix2 j k)
  refine congrArg (V m c main_arg4) (funext fun a => Fin.ext ?_)
  match a with
  | ⟨0, _⟩ => show win0_4.index t (0 : Fin 2) * 2048 + 1 * j.val = j.val; omega
  | ⟨1, _⟩ => show win0_4.index t (1 : Fin 2) * 512 + 1 * k.val = k.val; omega

/-- The input bias row, as the host laid it out before the launch, reads the bias vector. -/
theorem blk5_at (c : Dev nD) (t : Fin cfg0.N) (j : Fin 2048) :
    (iblk m c 5 t : Vec Ideal S1x2048 .f32) (ix2 (0 : Fin 1) j) = ((m ((c : Thread nD τ).loc main_arg5)) : S2048.Idx → EReal) (ix1 j) := by
  obtain ⟨ht, e0, e1, e2, e3, e7, e8⟩ := idx_facts t
  have hrow : (V m c main_v0 : S1x2048.Idx → EReal)
      = shapeCast S1x2048 ((m ((c : Thread nD τ).loc main_arg5)) : S2048.Idx → EReal) shapeCasts_S2048_S1x2048 := by
    dsimp only [V, hostOps0]; after_results; rfl
  have hemb : ((cfg0.win 5).blk t).view.emb (ix2 (0 : Fin 1) j) = (ix2 (0 : Fin 1) j : S1x2048.Idx) :=
    funext fun a => Fin.ext (by
      match a with
      | ⟨0, _⟩ => show win0_5.index t (0 : Fin 2) * 1 + 1 * 0 = 0; omega
      | ⟨1, _⟩ => show win0_5.index t (1 : Fin 2) * 2048 + 1 * j.val = j.val; omega)
  show V m c main_v0 (((cfg0.win 5).blk t).view.emb (ix2 (0 : Fin 1) j)) = _
  rw [hemb, hrow]
  exact shapeCast_a_1a_apply _ shapeCasts_S2048_S1x2048 0 j

/-- The hidden bias row, as the host laid it out before the launch, reads the bias vector. -/
theorem blk6_at (c : Dev nD) (t : Fin cfg0.N) (j : Fin 2048) :
    (iblk m c 6 t : Vec Ideal S1x2048 .f32) (ix2 (0 : Fin 1) j) = ((m ((c : Thread nD τ).loc main_arg6)) : S2048.Idx → EReal) (ix1 j) := by
  obtain ⟨ht, e0, e1, e2, e3, e7, e8⟩ := idx_facts t
  have hrow : (V m c main_v1 : S1x2048.Idx → EReal)
      = shapeCast S1x2048 ((m ((c : Thread nD τ).loc main_arg6)) : S2048.Idx → EReal) shapeCasts_S2048_S1x2048 := by
    dsimp only [V, hostOps0]; after_results; rfl
  have hemb : ((cfg0.win 6).blk t).view.emb (ix2 (0 : Fin 1) j) = (ix2 (0 : Fin 1) j : S1x2048.Idx) :=
    funext fun a => Fin.ext (by
      match a with
      | ⟨0, _⟩ => show win0_6.index t (0 : Fin 2) * 1 + 1 * 0 = 0; omega
      | ⟨1, _⟩ => show win0_6.index t (1 : Fin 2) * 2048 + 1 * j.val = j.val; omega)
  show V m c main_v1 (((cfg0.win 6).blk t).view.emb (ix2 (0 : Fin 1) j)) = _
  rw [hemb, hrow]
  exact shapeCast_a_1a_apply _ shapeCasts_S2048_S1x2048 0 j

/-- Row p of point t's block has the gates of row 256·t + p of the whole arrays. -/
theorem rowGates_blk (c : Dev nD) (t : Fin cfg0.N) (p : Fin 256) :
    Ker.rowGates (iblk m c 0 t) (iblk m c 1 t) (iblk m c 3 t) (iblk m c 4 t) (iblk m c 5 t) (iblk m c 6 t) p
      = gates (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (row t p) := by
  funext j
  unfold Ker.rowGates gates
  simp only [blk0_at m c t, blk1_at m c t, blk3_at m c t, blk4_at m c t, blk5_at m c t, blk6_at m c t]

/-- Where point t's block puts (p, q) in output array 7: row 256·t + p, column q. -/
theorem emb7 (t : Fin cfg0.N) (p : Fin 256) (q : Fin 512) :
    ((cfg0.win 7).blk t).view.emb (ix2 p q) = (ix2 (row t p) q : S4096x512.Idx) := by
  obtain ⟨ht, e0, e1, e2, e3, e7, e8⟩ := idx_facts t
  refine funext fun a => Fin.ext ?_
  match a with
  | ⟨0, _⟩ => show win0_7.index t (0 : Fin 2) * 256 + 1 * p.val = 256 * t.val + p.val; omega
  | ⟨1, _⟩ => show win0_7.index t (1 : Fin 2) * 512 + 1 * q.val = q.val; omega

/-- What the body leaves in the hidden-state window at point t, read at a block index, is the cell's hidden-state array at that index's place in the array. -/
theorem out7_at (c : Dev nD) (t : Fin cfg0.N) (y : S256x512.Idx) :
    out0_7 (iblk m c 0 t) (iblk m c 1 t) (iblk m c 2 t) (iblk m c 3 t) (iblk m c 4 t) (iblk m c 5 t) (iblk m c 6 t) y
      = hyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  obtain ⟨p, q, rfl⟩ : ∃ (p : Fin 256) (q : Fin 512), y = ix2 p q := ⟨y 0, y 1, eq_ix2 y⟩
  rw [emb7 t p q, hyArr_ix2]
  unfold out0_7
  rw [View.canon_unit_zero hz]
  simp only [View.ld_unit_zero (S := S256x512) hz, View.ld_unit_zero (S := S2048x512) hz, View.ld_unit_zero (S := S1x2048) hz]
  rw [Ker.hy_at, rowGates_blk m c t p, blk2_at m c t p q]
  rfl

/-- What point t writes back to output array 7 is block t of the cell's array. -/
theorem flushed7_eq (c : Dev nD) (t : Fin cfg0.N) :
    (dats m 0 c).flushed 7 t = ((cfg0.win 7).blk t).view.read (Elt Ideal) (hyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  exact funext fun y => out7_at m c t y

/-- An index of output array 7 is in point t's block iff each coordinate is in the block's range on its axis. -/
theorem mem_blk7 (t : Fin cfg0.N) (i : S4096x512.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v2_0).slice (win0_7.rect t)).set ↔ _
  rw [View.set_slice_whole, Rect.mem_set_unit]
  exact Iff.rfl

/-- Row r of output array 7 lies in the block of point r / 256: the sixteen blocks tile the array. -/
theorem cover7 (i : S4096x512.Idx) : ∃ t : Fin cfg0.N, (cfg0.win 7).flush t = true ∧ i ∈ ((cfg0.win 7).blk t).view.set := by
  have hi0 : (i 0).val < 4096 := (i 0).isLt
  have hi1 : (i 1).val < 512 := (i 1).isLt
  let t : Fin cfg0.N := ⟨(i 0).val / 256, by rw [show cfg0.N = 16 from N_0]; omega⟩
  have htv : t.val = (i 0).val / 256 := rfl
  obtain ⟨ht, e0, e1, e2, e3, e7, e8⟩ := idx_facts t
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 512 ≤ (i 1).val ∧ (i 1).val < win0_7.index t (1 : Fin 2) * 512 + 512; omega

/-- After the run output array 7 holds the cell's array of the argument arrays. -/
theorem final7 (c : Dev nD) : (dats m 0 c).arrAt 7 cfg0.N = hyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (hyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed7_eq m c t) (cover7)

/-- Where point t's block puts (p, q) in output array 8: row 256·t + p, column q. -/
theorem emb8 (t : Fin cfg0.N) (p : Fin 256) (q : Fin 512) :
    ((cfg0.win 8).blk t).view.emb (ix2 p q) = (ix2 (row t p) q : S4096x512.Idx) := by
  obtain ⟨ht, e0, e1, e2, e3, e7, e8⟩ := idx_facts t
  refine funext fun a => Fin.ext ?_
  match a with
  | ⟨0, _⟩ => show win0_8.index t (0 : Fin 2) * 256 + 1 * p.val = 256 * t.val + p.val; omega
  | ⟨1, _⟩ => show win0_8.index t (1 : Fin 2) * 512 + 1 * q.val = q.val; omega

/-- What the body leaves in the cell-state window at point t, read at a block index, is the cell's cell-state array at that index's place in the array. -/
theorem out8_at (c : Dev nD) (t : Fin cfg0.N) (y : S256x512.Idx) :
    out0_8 (iblk m c 0 t) (iblk m c 1 t) (iblk m c 2 t) (iblk m c 3 t) (iblk m c 4 t) (iblk m c 5 t) (iblk m c 6 t) y
      = cyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  obtain ⟨p, q, rfl⟩ : ∃ (p : Fin 256) (q : Fin 512), y = ix2 p q := ⟨y 0, y 1, eq_ix2 y⟩
  rw [emb8 t p q, cyArr_ix2]
  unfold out0_8
  rw [View.canon_unit_zero hz]
  simp only [View.ld_unit_zero (S := S256x512) hz, View.ld_unit_zero (S := S2048x512) hz, View.ld_unit_zero (S := S1x2048) hz]
  rw [Ker.cy_at, rowGates_blk m c t p, blk2_at m c t p q]
  rfl

/-- What point t writes back to output array 8 is block t of the cell's array. -/
theorem flushed8_eq (c : Dev nD) (t : Fin cfg0.N) :
    (dats m 0 c).flushed 8 t = ((cfg0.win 8).blk t).view.read (Elt Ideal) (cyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed8]
  exact funext fun y => out8_at m c t y

/-- An index of output array 8 is in point t's block iff each coordinate is in the block's range on its axis. -/
theorem mem_blk8 (t : Fin cfg0.N) (i : S4096x512.Idx) :
    i ∈ ((cfg0.win 8).blk t).view.set ↔ ∀ a : Fin 2, win0_8.index t a * S256x512.size a ≤ (i a).val ∧ (i a).val < win0_8.index t a * S256x512.size a + S256x512.size a := by
  show i ∈ ((View.whole main_v2_1).slice (win0_8.rect t)).set ↔ _
  rw [View.set_slice_whole, Rect.mem_set_unit]
  exact Iff.rfl

/-- Row r of output array 8 lies in the block of point r / 256: the sixteen blocks tile the array. -/
theorem cover8 (i : S4096x512.Idx) : ∃ t : Fin cfg0.N, (cfg0.win 8).flush t = true ∧ i ∈ ((cfg0.win 8).blk t).view.set := by
  have hi0 : (i 0).val < 4096 := (i 0).isLt
  have hi1 : (i 1).val < 512 := (i 1).isLt
  let t : Fin cfg0.N := ⟨(i 0).val / 256, by rw [show cfg0.N = 16 from N_0]; omega⟩
  have htv : t.val = (i 0).val / 256 := rfl
  obtain ⟨ht, e0, e1, e2, e3, e7, e8⟩ := idx_facts t
  refine ⟨t, flush0_8 t, ?_⟩
  rw [mem_blk8]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 512 ≤ (i 1).val ∧ (i 1).val < win0_8.index t (1 : Fin 2) * 512 + 512; omega

/-- After the run output array 8 holds the cell's array of the argument arrays. -/
theorem final8 (c : Dev nD) : (dats m 0 c).arrAt 8 cfg0.N = cyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 (cyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed8_eq m c t) (cover8)

/-- The kernel's run, read: the two result arrays are the cell's two arrays of the argument arrays, and the
    arguments end unchanged. -/
theorem run : θ_run defs (onTc (τ := τ) (main (F := Ideal))) ⟨m, fun _ => 0, ρ⟩ fun r => ∀ c : Dev nD,
      r.2.mem ((c : Thread nD τ).loc main_v2_0) = hyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v2_1) = cyArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Cert.KernelIdeal.Value.run_blocks m ρ)

end Cert.QCell.Blocks

end
-- ==== Proof.Words.lean ====
/-
  The float words the two programs of this quantised LSTM cell spell, as the extended reals they denote: the powers
  of two 2^14, 2^15, 2^16, 2^27, their reciprocals, and 1. One program scales by multiplying with the reciprocal
  of a power of two where the other divides by the power; on every extended real, infinite ones included, the quotient
  by a nonzero real is the product with its reciprocal, so the two scalings are one function. And the quotient
  1 / (1 + e^(-x)), spelled with the word for 1, is the logistic function.
-/
import Idealize.ShloMosaic.PureOps.Ideal

noncomputable section

namespace Cert.QCell.Words

open Idealize.ShloMosaic

/-- The word `0x46800000` is 2^14. -/
theorem two14 : Ideal.ofBits .f32 0x46800000#32 = ((16384 : ℝ) : EReal) := by
  simp [Ideal.ofBits, Ideal.ieee, -EReal.coe_mul]; norm_num
/-- The word `0x38800000` is 2^-14. -/
theorem inv14 : Ideal.ofBits .f32 0x38800000#32 = ((1 / 16384 : ℝ) : EReal) := by
  simp [Ideal.ofBits, Ideal.ieee, -EReal.coe_mul]; norm_num
/-- The word `0x47000000` is 2^15. -/
theorem two15 : Ideal.ofBits .f32 0x47000000#32 = ((32768 : ℝ) : EReal) := by
  simp [Ideal.ofBits, Ideal.ieee, -EReal.coe_mul]; norm_num
/-- The word `0x38000000` is 2^-15. -/
theorem inv15 : Ideal.ofBits .f32 0x38000000#32 = ((1 / 32768 : ℝ) : EReal) := by
  simp [Ideal.ofBits, Ideal.ieee, -EReal.coe_mul]; norm_num
/-- The word `0x47800000` is 2^16. -/
theorem two16 : Ideal.ofBits .f32 0x47800000#32 = ((65536 : ℝ) : EReal) := by
  simp [Ideal.ofBits, Ideal.ieee, -EReal.coe_mul]; norm_num
/-- The word `0x37800000` is 2^-16. -/
theorem inv16 : Ideal.ofBits .f32 0x37800000#32 = ((1 / 65536 : ℝ) : EReal) := by
  simp [Ideal.ofBits, Ideal.ieee, -EReal.coe_mul]; norm_num
/-- The word `0x4D000000` is 2^27. -/
theorem two27 : Ideal.ofBits .f32 0x4D000000#32 = ((134217728 : ℝ) : EReal) := by
  simp [Ideal.ofBits, Ideal.ieee, -EReal.coe_mul]; norm_num
/-- The word `0x32000000` is 2^-27. -/
theorem inv27 : Ideal.ofBits .f32 0x32000000#32 = ((1 / 134217728 : ℝ) : EReal) := by
  simp [Ideal.ofBits, Ideal.ieee, -EReal.coe_mul]; norm_num
/-- The word `0x3F800000` is 1. -/
theorem one : Ideal.ofBits .f32 0x3F800000#32 = 1 := by
  simp [Ideal.ofBits, Ideal.ieee, -EReal.coe_mul]; norm_num

/-- Dividing by 2^14 is multiplying by 2^-14, on every extended real. -/
theorem div14 (y : EReal) :
    Ideal.div y (Ideal.ofBits .f32 0x46800000#32) = y * Ideal.ofBits .f32 0x38800000#32 := by
  rw [two14, inv14]; exact Ideal.div_coe (by norm_num) y
/-- Dividing by 2^15 is multiplying by 2^-15, on every extended real. -/
theorem div15 (y : EReal) :
    Ideal.div y (Ideal.ofBits .f32 0x47000000#32) = y * Ideal.ofBits .f32 0x38000000#32 := by
  rw [two15, inv15]; exact Ideal.div_coe (by norm_num) y
/-- Dividing by 2^16 is multiplying by 2^-16, on every extended real. -/
theorem div16 (y : EReal) :
    Ideal.div y (Ideal.ofBits .f32 0x47800000#32) = y * Ideal.ofBits .f32 0x37800000#32 := by
  rw [two16, inv16]; exact Ideal.div_coe (by norm_num) y
/-- Dividing by 2^27 is multiplying by 2^-27, on every extended real. -/
theorem div27 (y : EReal) :
    Ideal.div y (Ideal.ofBits .f32 0x4D000000#32) = y * Ideal.ofBits .f32 0x32000000#32 := by
  rw [two27, inv27]; exact Ideal.div_coe (by norm_num) y

/-- 1 / (1 + e^(-x)), the ones spelled as float words, is the logistic function of x. -/
theorem logistic_spelled (x : EReal) :
    Ideal.div (Ideal.ofBits .f32 0x3F800000#32) (Ideal.ofBits .f32 0x3F800000#32 + Ideal.exp (-x)) = Ideal.logistic x := by
  rw [one]; rfl

end Cert.QCell.Words

end
-- ==== Proof.RefSide.lean ====
/-
  The reference program, read at an index, is the cell of Cell.lean.

  The reference multiplies the input and the hidden state by the TRANSPOSED weight matrices, so its product at (r, j)
  is again Σ_k X(r,k)·W(j,k); it adds the bias spread over the rows, and rounds by ⌊x·2^14 + 1/2⌋ / 2^14. The quotient
  by 2^14 is the product with 2^-14 on every extended real, so row r's gate column j is `gates … r j`. The four gates
  of hidden unit q are the column slices at 0, 512, 1024 and 1536. Every later stage is pointwise; where the kernel
  multiplies by 2^-27, 2^-16, 2^-15 the reference divides by 2^27, 2^16, 2^15, and it spells the logistic function as
  1 / (1 + e^(-x)): the same functions of an extended real. So the two results at (r, q) are `hyAt` and `cyAt`.
-/
import proofs.«113803_j63153199121065_2_alg».proof.Proof.Gen.ReferenceIdeal.Read
import proofs.«113803_j63153199121065_2_alg».proof.Proof.Cell
import proofs.«113803_j63153199121065_2_alg».proof.Proof.Words
import Idealize.ShloMosaic.Lib.ValueIdx

set_option maxRecDepth 16384

noncomputable section

namespace Cert.QCell.Ref

open Cert.ReferenceIdeal Cert.ReferenceIdeal.Gen Cert.ReferenceIdeal.Read Idealize.ShloMosaic Idealize.ShloMosaic.ValueIdx Cert.QCell
open scoped BigOperators

/-- Row r's pre-activation of gate column j. -/
theorem gates_at (x0 x1 : (⟨S4096x512, .f32⟩ : BufTy).Contents (Elt Ideal)) (x3 x4 : (⟨S2048x512, .f32⟩ : BufTy).Contents (Elt Ideal))
    (x5 x6 : (⟨S2048, .f32⟩ : BufTy).Contents (Elt Ideal)) (r : Fin 4096) (j : Fin 2048) :
    val_main_v24 (F := Ideal) x0 x1 x3 x4 x5 x6 (ix2 r j) = gates x0 x1 x3 x4 x5 x6 r j := by
  have il : ∀ k : Fin 512, lidx_main_v1 (ix2 r j) k = ix2 r k := fun k => funext fun a => Fin.ext (by
    match a with | ⟨0, _⟩ => rfl | ⟨1, _⟩ => rfl)
  have ir : ∀ k : Fin 512, idx_main_v0 (ridx_main_v1 (ix2 r j) k) = ix2 j k := fun k => funext fun a => Fin.ext (by
    match a with | ⟨0, _⟩ => rfl | ⟨1, _⟩ => rfl)
  have il' : ∀ k : Fin 512, lidx_main_v6 (ix2 r j) k = ix2 r k := fun k => funext fun a => Fin.ext (by
    match a with | ⟨0, _⟩ => rfl | ⟨1, _⟩ => rfl)
  have ir' : ∀ k : Fin 512, idx_main_v5 (ridx_main_v6 (ix2 r j) k) = ix2 j k := fun k => funext fun a => Fin.ext (by
    match a with | ⟨0, _⟩ => rfl | ⟨1, _⟩ => rfl)
  have ib : idx_main_v2 (idx_main_v3 (ix2 r j)) = ix1 j := funext fun a => Fin.ext (by
    match a with | ⟨0, _⟩ => rfl)
  have ib' : idx_main_v7 (idx_main_v8 (ix2 r j)) = ix1 j := funext fun a => Fin.ext (by
    match a with | ⟨0, _⟩ => rfl)
  simp only [
    val_main_v0_apply, val_main_v1_apply, val_main_v2_apply, val_main_v3_apply, val_main_v4_apply, val_main_v5_apply,
    val_main_v6_apply, val_main_v7_apply, val_main_v8_apply, val_main_v9_apply, val_main_cst_apply,
    val_main_v10_apply, val_main_v11_apply, val_main_cst_0_apply, val_main_v12_apply, val_main_v13_apply,
    val_main_v14_apply, val_main_cst_1_apply, val_main_v15_apply, val_main_v16_apply, val_main_cst_2_apply,
    val_main_v17_apply, val_main_v18_apply, val_main_cst_3_apply, val_main_v19_apply, val_main_v20_apply,
    val_main_v21_apply, val_main_cst_4_apply, val_main_v22_apply, val_main_v23_apply, val_main_v24_apply,
    il, ir, il', ir', ib, ib',
    Ideal.addf_def, Ideal.mulf_def, Ideal.hostDivf_def, Ideal.hostUnary_floor_def, Ideal.ofBits_def, Words.div14]
  rfl

/-- The four gate slices of hidden unit q are the gate columns q, 512 + q, 1024 + q, 1536 + q. -/
theorem slice0 (r : Fin 4096) (q : Fin 512) : idx_main_v25 (ix2 r q) = ix2 r (col 0 (by omega) q) :=
  funext fun a => Fin.ext (by
    match a with
    | ⟨0, _⟩ => rfl
    | ⟨1, _⟩ => show q.val = 0 + q.val; omega)
theorem slice1 (r : Fin 4096) (q : Fin 512) : idx_main_v26 (ix2 r q) = ix2 r (col 512 (by omega) q) :=
  funext fun a => Fin.ext (by
    match a with
    | ⟨0, _⟩ => rfl
    | ⟨1, _⟩ => rfl)
theorem slice2 (r : Fin 4096) (q : Fin 512) : idx_main_v27 (ix2 r q) = ix2 r (col 1024 (by omega) q) :=
  funext fun a => Fin.ext (by
    match a with
    | ⟨0, _⟩ => rfl
    | ⟨1, _⟩ => rfl)
theorem slice3 (r : Fin 4096) (q : Fin 512) : idx_main_v28 (ix2 r q) = ix2 r (col 1536 (by omega) q) :=
  funext fun a => Fin.ext (by
    match a with
    | ⟨0, _⟩ => rfl
    | ⟨1, _⟩ => rfl)

/-- The reference's new hidden state at (r, q). -/
theorem hy_at (x0 x1 x2 : (⟨S4096x512, .f32⟩ : BufTy).Contents (Elt Ideal)) (x3 x4 : (⟨S2048x512, .f32⟩ : BufTy).Contents (Elt Ideal))
    (x5 x6 : (⟨S2048, .f32⟩ : BufTy).Contents (Elt Ideal)) (r : Fin 4096) (q : Fin 512) :
    val_main_v159 (F := Ideal) x0 x1 x2 x3 x4 x5 x6 (ix2 r q) = hyAt x0 x1 x2 x3 x4 x5 x6 r q := by
  simp only [
    val_main_v25_apply, val_main_v26_apply, val_main_v27_apply, val_main_v28_apply, val_main_cst_5_apply,
    val_main_v29_apply, val_main_v30_apply, val_main_cst_6_apply, val_main_v31_apply, val_main_v32_apply,
    val_main_v33_apply, val_main_cst_7_apply, val_main_cst_8_apply, val_main_call0_v0_apply, val_main_call0_v1_apply,
    val_main_call0_v2_apply, val_main_call0_v3_apply, val_main_call0_v4_apply, val_main_v34_apply,
    val_main_cst_9_apply, val_main_v35_apply, val_main_v36_apply, val_main_v37_apply, val_main_v38_apply,
    val_main_cst_10_apply, val_main_v39_apply, val_main_v40_apply, val_main_cst_11_apply, val_main_v41_apply,
    val_main_v42_apply, val_main_cst_12_apply, val_main_v43_apply, val_main_v44_apply, val_main_cst_13_apply,
    val_main_v45_apply, val_main_v46_apply, val_main_v47_apply, val_main_cst_14_apply, val_main_v48_apply,
    val_main_v49_apply, val_main_cst_15_apply, val_main_v50_apply, val_main_v51_apply, val_main_v52_apply,
    val_main_cst_16_apply, val_main_v53_apply, val_main_v54_apply, val_main_cst_17_apply, val_main_v55_apply,
    val_main_v56_apply, val_main_cst_18_apply, val_main_v57_apply, val_main_v58_apply, val_main_v59_apply,
    val_main_cst_19_apply, val_main_cst_20_apply, val_main_call1_v0_apply, val_main_call1_v1_apply,
    val_main_call1_v2_apply, val_main_call1_v3_apply, val_main_call1_v4_apply, val_main_v60_apply,
    val_main_cst_21_apply, val_main_v61_apply, val_main_v62_apply, val_main_v63_apply, val_main_v64_apply,
    val_main_cst_22_apply, val_main_v65_apply, val_main_v66_apply, val_main_cst_23_apply, val_main_v67_apply,
    val_main_v68_apply, val_main_cst_24_apply, val_main_v69_apply, val_main_v70_apply, val_main_cst_25_apply,
    val_main_v71_apply, val_main_v72_apply, val_main_v73_apply, val_main_cst_26_apply, val_main_v74_apply,
    val_main_v75_apply, val_main_cst_27_apply, val_main_v76_apply, val_main_v77_apply, val_main_v78_apply,
    val_main_cst_28_apply, val_main_v79_apply, val_main_v80_apply, val_main_cst_29_apply, val_main_v81_apply,
    val_main_v82_apply, val_main_cst_30_apply, val_main_v83_apply, val_main_v84_apply, val_main_v85_apply,
    val_main_cst_31_apply, val_main_cst_32_apply, val_main_call2_v0_apply, val_main_call2_v1_apply,
    val_main_call2_v2_apply, val_main_call2_v3_apply, val_main_call2_v4_apply, val_main_v86_apply,
    val_main_cst_33_apply, val_main_v87_apply, val_main_v88_apply, val_main_v89_apply, val_main_cst_34_apply,
    val_main_v90_apply, val_main_v91_apply, val_main_cst_35_apply, val_main_v92_apply, val_main_v93_apply,
    val_main_v94_apply, val_main_cst_36_apply, val_main_v95_apply, val_main_v96_apply, val_main_cst_37_apply,
    val_main_v97_apply, val_main_v98_apply, val_main_v99_apply, val_main_cst_38_apply, val_main_v100_apply,
    val_main_v101_apply, val_main_cst_39_apply, val_main_v102_apply, val_main_v103_apply, val_main_cst_40_apply,
    val_main_v104_apply, val_main_v105_apply, val_main_v106_apply, val_main_cst_41_apply, val_main_cst_42_apply,
    val_main_call3_v0_apply, val_main_call3_v1_apply, val_main_call3_v2_apply, val_main_call3_v3_apply,
    val_main_call3_v4_apply, val_main_v107_apply, val_main_cst_43_apply, val_main_v108_apply, val_main_v109_apply,
    val_main_v110_apply, val_main_v111_apply, val_main_cst_44_apply, val_main_v112_apply, val_main_v113_apply,
    val_main_cst_45_apply, val_main_v114_apply, val_main_v115_apply, val_main_cst_46_apply, val_main_v116_apply,
    val_main_v117_apply, val_main_cst_47_apply, val_main_v118_apply, val_main_v119_apply, val_main_v120_apply,
    val_main_cst_48_apply, val_main_v121_apply, val_main_v122_apply, val_main_cst_49_apply, val_main_v123_apply,
    val_main_v124_apply, val_main_v125_apply, val_main_cst_50_apply, val_main_v126_apply, val_main_v127_apply,
    val_main_cst_51_apply, val_main_v128_apply, val_main_v129_apply, val_main_cst_52_apply, val_main_v130_apply,
    val_main_v131_apply, val_main_v132_apply, val_main_cst_53_apply, val_main_v133_apply, val_main_v134_apply,
    val_main_v135_apply, val_main_v136_apply, val_main_v137_apply, val_main_cst_54_apply, val_main_v138_apply,
    val_main_v139_apply, val_main_cst_55_apply, val_main_v140_apply, val_main_v141_apply, val_main_v142_apply,
    val_main_cst_56_apply, val_main_cst_57_apply, val_main_call4_v0_apply, val_main_call4_v1_apply,
    val_main_call4_v2_apply, val_main_call4_v3_apply, val_main_call4_v4_apply, val_main_v143_apply,
    val_main_cst_58_apply, val_main_v144_apply, val_main_v145_apply, val_main_v146_apply, val_main_cst_59_apply,
    val_main_v147_apply, val_main_v148_apply, val_main_cst_60_apply, val_main_v149_apply, val_main_v150_apply,
    val_main_v151_apply, val_main_cst_61_apply, val_main_v152_apply, val_main_v153_apply, val_main_cst_62_apply,
    val_main_v154_apply, val_main_v155_apply, val_main_v156_apply, val_main_cst_63_apply, val_main_v157_apply,
    val_main_v158_apply, val_main_v159_apply, val_main_cst_64_apply, val_main_v160_apply, val_main_v161_apply,
    val_main_cst_65_apply, val_main_v162_apply, val_main_v163_apply, val_main_v164_apply, val_main_cst_66_apply,
    val_main_v165_apply, val_main_v166_apply,
    slice0, slice1, slice2, slice3, gates_at,
    Ideal.addf_def, Ideal.mulf_def, Ideal.hostDivf_def, Ideal.hostUnary_floor_def, Ideal.ofBits_def, Ideal.maximumf_def,
    Ideal.minimumf_def, Ideal.hostNegf_def, Ideal.negf_def, Ideal.hostUnary_exp_def, Ideal.hostUnary_tanh_def,
    Words.div15, Words.div16, Words.div27, Words.logistic_spelled]
  rfl

/-- The reference's new cell state at (r, q). -/
theorem cy_at (x0 x1 x2 : (⟨S4096x512, .f32⟩ : BufTy).Contents (Elt Ideal)) (x3 x4 : (⟨S2048x512, .f32⟩ : BufTy).Contents (Elt Ideal))
    (x5 x6 : (⟨S2048, .f32⟩ : BufTy).Contents (Elt Ideal)) (r : Fin 4096) (q : Fin 512) :
    val_main_v166 (F := Ideal) x0 x1 x2 x3 x4 x5 x6 (ix2 r q) = cyAt x0 x1 x2 x3 x4 x5 x6 r q := by
  simp only [
    val_main_v25_apply, val_main_v26_apply, val_main_v27_apply, val_main_v28_apply, val_main_cst_5_apply,
    val_main_v29_apply, val_main_v30_apply, val_main_cst_6_apply, val_main_v31_apply, val_main_v32_apply,
    val_main_v33_apply, val_main_cst_7_apply, val_main_cst_8_apply, val_main_call0_v0_apply, val_main_call0_v1_apply,
    val_main_call0_v2_apply, val_main_call0_v3_apply, val_main_call0_v4_apply, val_main_v34_apply,
    val_main_cst_9_apply, val_main_v35_apply, val_main_v36_apply, val_main_v37_apply, val_main_v38_apply,
    val_main_cst_10_apply, val_main_v39_apply, val_main_v40_apply, val_main_cst_11_apply, val_main_v41_apply,
    val_main_v42_apply, val_main_cst_12_apply, val_main_v43_apply, val_main_v44_apply, val_main_cst_13_apply,
    val_main_v45_apply, val_main_v46_apply, val_main_v47_apply, val_main_cst_14_apply, val_main_v48_apply,
    val_main_v49_apply, val_main_cst_15_apply, val_main_v50_apply, val_main_v51_apply, val_main_v52_apply,
    val_main_cst_16_apply, val_main_v53_apply, val_main_v54_apply, val_main_cst_17_apply, val_main_v55_apply,
    val_main_v56_apply, val_main_cst_18_apply, val_main_v57_apply, val_main_v58_apply, val_main_v59_apply,
    val_main_cst_19_apply, val_main_cst_20_apply, val_main_call1_v0_apply, val_main_call1_v1_apply,
    val_main_call1_v2_apply, val_main_call1_v3_apply, val_main_call1_v4_apply, val_main_v60_apply,
    val_main_cst_21_apply, val_main_v61_apply, val_main_v62_apply, val_main_v63_apply, val_main_v64_apply,
    val_main_cst_22_apply, val_main_v65_apply, val_main_v66_apply, val_main_cst_23_apply, val_main_v67_apply,
    val_main_v68_apply, val_main_cst_24_apply, val_main_v69_apply, val_main_v70_apply, val_main_cst_25_apply,
    val_main_v71_apply, val_main_v72_apply, val_main_v73_apply, val_main_cst_26_apply, val_main_v74_apply,
    val_main_v75_apply, val_main_cst_27_apply, val_main_v76_apply, val_main_v77_apply, val_main_v78_apply,
    val_main_cst_28_apply, val_main_v79_apply, val_main_v80_apply, val_main_cst_29_apply, val_main_v81_apply,
    val_main_v82_apply, val_main_cst_30_apply, val_main_v83_apply, val_main_v84_apply, val_main_v85_apply,
    val_main_cst_31_apply, val_main_cst_32_apply, val_main_call2_v0_apply, val_main_call2_v1_apply,
    val_main_call2_v2_apply, val_main_call2_v3_apply, val_main_call2_v4_apply, val_main_v86_apply,
    val_main_cst_33_apply, val_main_v87_apply, val_main_v88_apply, val_main_v89_apply, val_main_cst_34_apply,
    val_main_v90_apply, val_main_v91_apply, val_main_cst_35_apply, val_main_v92_apply, val_main_v93_apply,
    val_main_v94_apply, val_main_cst_36_apply, val_main_v95_apply, val_main_v96_apply, val_main_cst_37_apply,
    val_main_v97_apply, val_main_v98_apply, val_main_v99_apply, val_main_cst_38_apply, val_main_v100_apply,
    val_main_v101_apply, val_main_cst_39_apply, val_main_v102_apply, val_main_v103_apply, val_main_cst_40_apply,
    val_main_v104_apply, val_main_v105_apply, val_main_v106_apply, val_main_cst_41_apply, val_main_cst_42_apply,
    val_main_call3_v0_apply, val_main_call3_v1_apply, val_main_call3_v2_apply, val_main_call3_v3_apply,
    val_main_call3_v4_apply, val_main_v107_apply, val_main_cst_43_apply, val_main_v108_apply, val_main_v109_apply,
    val_main_v110_apply, val_main_v111_apply, val_main_cst_44_apply, val_main_v112_apply, val_main_v113_apply,
    val_main_cst_45_apply, val_main_v114_apply, val_main_v115_apply, val_main_cst_46_apply, val_main_v116_apply,
    val_main_v117_apply, val_main_cst_47_apply, val_main_v118_apply, val_main_v119_apply, val_main_v120_apply,
    val_main_cst_48_apply, val_main_v121_apply, val_main_v122_apply, val_main_cst_49_apply, val_main_v123_apply,
    val_main_v124_apply, val_main_v125_apply, val_main_cst_50_apply, val_main_v126_apply, val_main_v127_apply,
    val_main_cst_51_apply, val_main_v128_apply, val_main_v129_apply, val_main_cst_52_apply, val_main_v130_apply,
    val_main_v131_apply, val_main_v132_apply, val_main_cst_53_apply, val_main_v133_apply, val_main_v134_apply,
    val_main_v135_apply, val_main_v136_apply, val_main_v137_apply, val_main_cst_54_apply, val_main_v138_apply,
    val_main_v139_apply, val_main_cst_55_apply, val_main_v140_apply, val_main_v141_apply, val_main_v142_apply,
    val_main_cst_56_apply, val_main_cst_57_apply, val_main_call4_v0_apply, val_main_call4_v1_apply,
    val_main_call4_v2_apply, val_main_call4_v3_apply, val_main_call4_v4_apply, val_main_v143_apply,
    val_main_cst_58_apply, val_main_v144_apply, val_main_v145_apply, val_main_v146_apply, val_main_cst_59_apply,
    val_main_v147_apply, val_main_v148_apply, val_main_cst_60_apply, val_main_v149_apply, val_main_v150_apply,
    val_main_v151_apply, val_main_cst_61_apply, val_main_v152_apply, val_main_v153_apply, val_main_cst_62_apply,
    val_main_v154_apply, val_main_v155_apply, val_main_v156_apply, val_main_cst_63_apply, val_main_v157_apply,
    val_main_v158_apply, val_main_v159_apply, val_main_cst_64_apply, val_main_v160_apply, val_main_v161_apply,
    val_main_cst_65_apply, val_main_v162_apply, val_main_v163_apply, val_main_v164_apply, val_main_cst_66_apply,
    val_main_v165_apply, val_main_v166_apply,
    slice0, slice1, slice2, slice3, gates_at,
    Ideal.addf_def, Ideal.mulf_def, Ideal.hostDivf_def, Ideal.hostUnary_floor_def, Ideal.ofBits_def, Ideal.maximumf_def,
    Ideal.minimumf_def, Ideal.hostNegf_def, Ideal.negf_def, Ideal.hostUnary_exp_def, Ideal.hostUnary_tanh_def,
    Words.div15, Words.div16, Words.div27, Words.logistic_spelled]
  rfl

/-- The reference's first result is the hidden-state array of the cell. -/
theorem hy_eq (x0 x1 x2 : (⟨S4096x512, .f32⟩ : BufTy).Contents (Elt Ideal)) (x3 x4 : (⟨S2048x512, .f32⟩ : BufTy).Contents (Elt Ideal))
    (x5 x6 : (⟨S2048, .f32⟩ : BufTy).Contents (Elt Ideal)) :
    val_main_v159 (F := Ideal) x0 x1 x2 x3 x4 x5 x6 = hyArr x0 x1 x2 x3 x4 x5 x6 := by
  funext i
  obtain ⟨r, q, rfl⟩ : ∃ (r : Fin 4096) (q : Fin 512), i = ix2 r q := ⟨i 0, i 1, eq_ix2 i⟩
  exact (hy_at x0 x1 x2 x3 x4 x5 x6 r q).trans (hyArr_ix2 x0 x1 x2 x3 x4 x5 x6 r q).symm

/-- The reference's second result is the cell-state array of the cell. -/
theorem cy_eq (x0 x1 x2 : (⟨S4096x512, .f32⟩ : BufTy).Contents (Elt Ideal)) (x3 x4 : (⟨S2048x512, .f32⟩ : BufTy).Contents (Elt Ideal))
    (x5 x6 : (⟨S2048, .f32⟩ : BufTy).Contents (Elt Ideal)) :
    val_main_v166 (F := Ideal) x0 x1 x2 x3 x4 x5 x6 = cyArr x0 x1 x2 x3 x4 x5 x6 := by
  funext i
  obtain ⟨r, q, rfl⟩ : ∃ (r : Fin 4096) (q : Fin 512), i = ix2 r q := ⟨i 0, i 1, eq_ix2 i⟩
  exact (cy_at x0 x1 x2 x3 x4 x5 x6 r q).trans (cyArr_ix2 x0 x1 x2 x3 x4 x5 x6 r q).symm

end Cert.QCell.Ref

end
-- ==== Proof.lean ====
/-
  A quantised LSTM cell over a batch of 4096 rows with 512 hidden units: the kernel and its reference compute the same
  two arrays on the extended reals.

  Both programs form, for each row, 2048 gate pre-activations: the row of the input against the input weights plus a
  bias, and the row of the hidden state against the hidden weights plus a bias, each rounded half-up to a multiple of
  2^-14 by itself, then added. Hidden unit q reads columns q, 512 + q, 1024 + q and 1536 + q as its input, forget,
  cell and output gates; each goes through a Q27 clamp, a logistic function or a hyperbolic tangent, and a Q31-to-Q15
  requantisation; the old cell state is rounded to a multiple of 2^-15, the new cell state is
  (old · forget + input · cell), and the results are its quantised tanh times the output gate, and its own rounding
  to a multiple of 2^-15 (Proof/Cell.lean states this as one function of the seven argument arrays).

  The two programs differ in spelling only. The kernel walks the rows in sixteen blocks of 256 and multiplies by the
  weights stored one row per gate column; the reference multiplies by the transposed weight matrices: one sum
  (Proof/KerSide.lean, Proof/RefSide.lean). The kernel scales by 2^-14, 2^-15, 2^-16, 2^-27 where the reference
  divides by 2^14, 2^15, 2^16, 2^27, and the reference writes the logistic function as 1 / (1 + e^(-x)): on every
  extended real these are the same functions (Proof/Words.lean), so no finiteness of the inputs is used. The sixteen
  blocks tile each result array (Proof/Blocks.lean).

  The three frame claims are the programs' runs with the results dropped; the idealised kernel is the kernel's own
  text read on the extended reals, so nothing was rewritten and there is nothing to preserve.
-/
import proofs.«113803_j63153199121065_2_alg».proof.Defs
import proofs.«113803_j63153199121065_2_alg».proof.Proof.Gen.Kernel
import proofs.«113803_j63153199121065_2_alg».proof.Proof.Gen.Kernel.Skeleton
import proofs.«113803_j63153199121065_2_alg».proof.Proof.Gen.Kernel.Launch
import proofs.«113803_j63153199121065_2_alg».proof.Proof.Gen.Kernel.Points
import proofs.«113803_j63153199121065_2_alg».proof.Proof.Gen.Kernel.Frame
import proofs.«113803_j63153199121065_2_alg».proof.Proof.Gen.KernelIdeal
import proofs.«113803_j63153199121065_2_alg».proof.Proof.Gen.KernelIdeal.Skeleton
import proofs.«113803_j63153199121065_2_alg».proof.Proof.Gen.KernelIdeal.Launch
import proofs.«113803_j63153199121065_2_alg».proof.Proof.Gen.KernelIdeal.Points
import proofs.«113803_j63153199121065_2_alg».proof.Proof.Gen.KernelIdeal.Frame
import proofs.«113803_j63153199121065_2_alg».proof.Proof.Gen.ReferenceIdeal
import proofs.«113803_j63153199121065_2_alg».proof.Proof.Gen.Pre_finite_inputs
import proofs.«113803_j63153199121065_2_alg».proof.Proof.Gen.KernelIdeal.Value
import proofs.«113803_j63153199121065_2_alg».proof.Proof.Gen.ReferenceIdeal.Run
import proofs.«113803_j63153199121065_2_alg».proof.Proof.Gen.ReferenceIdeal.Read
import proofs.«113803_j63153199121065_2_alg».proof.Proof.Blocks
import proofs.«113803_j63153199121065_2_alg».proof.Proof.RefSide
import Idealize.ShloMosaic.Adequacy
import Idealize.ShloMosaic.Init

noncomputable section

namespace Cert.Proof

open Idealize.ShloMosaic Idealize.SL.Sem Cert.QCell

/-- The kernel as printed terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten when it was read on the extended reals. -/
theorem preserves : Cert.preserves_Kernel_KernelIdeal := trivial

/-- From memories that agree on the seven arguments both programs end with the cell's hidden-state array and the
    cell's cell-state array of those arguments. -/
theorem algebraic : Cert.algebraic_KernelIdeal_ReferenceIdeal := by
  intro m ρ m' ρ' _ hagree
  refine ⟨fun c => hyArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => cyArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.QCell.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v159_eq, Cert.QCell.Ref.hy_eq, (hagree c).1, (hagree c).2.1, (hagree c).2.2.1,
      (hagree c).2.2.2.1, (hagree c).2.2.2.2.1, (hagree c).2.2.2.2.2.1, (hagree c).2.2.2.2.2.2]
  · rw [Cert.ReferenceIdeal.Read.val_main_v166_eq, Cert.QCell.Ref.cy_eq, (hagree c).1, (hagree c).2.1, (hagree c).2.2.1,
      (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
